-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S16384x4096 : Shape := ⟨2, ![16384, 4096]⟩
abbrev S4096 : Shape := ⟨1, ![4096]⟩
abbrev S_ : Shape := ⟨0, ![]⟩
abbrev S1x4096 : Shape := ⟨2, ![1, 4096]⟩
abbrev S512x4096 : Shape := ⟨2, ![512, 4096]⟩

abbrev nBuf : Space → Nat
  | .hbm => 10
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S_, .f32⟩
  | .hbm, ⟨3, _⟩ => ⟨S4096, .f32⟩
  | .hbm, ⟨4, _⟩ => ⟨S4096, .i1⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S1x4096, .f32⟩
  | .hbm, ⟨9, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S4096 : S_.BroadcastsInDim S4096 (![] : Fin 0 → Fin S4096.rank)
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  broadcasts_S1x4096_S512x4096 : S1x4096.Broadcasts S512x4096
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096 : Shape := ⟨1, ![4096]⟩
abbrev S_ : Shape := ⟨0, ![]⟩
abbrev S1x4096 : Shape := ⟨2, ![1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S_, .f32⟩
  | .hbm, ⟨3, _⟩ => ⟨S4096, .f32⟩
  | .hbm, ⟨4, _⟩ => ⟨S4096, .i1⟩
  | .hbm, ⟨5, _⟩ => ⟨S1x4096, .f32⟩
  | .hbm, ⟨6, _⟩ => ⟨S16384x4096, .f32⟩
  | .hbm, ⟨7, _⟩ => ⟨S16384x4096, .i1⟩
  | .hbm, ⟨8, _⟩ => ⟨S1x4096, .i1⟩
  | .hbm, ⟨9, _⟩ => ⟨S16384x4096, .i1⟩
  | .hbm, ⟨10, _⟩ => ⟨S16384x4096, .i1⟩
  | .hbm, ⟨11, _⟩ => ⟨S_, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)

variable [Facts₀]

class Facts : Prop extends Facts₀ where

variable [Facts]
-- ==== Proof.BinarizeLaw.lean ====
/-
  The scalar law behind the certificate. A feature with median `med` is binarized as
  "1 where `med > 0` and `x ≥ med`, else 0". One program tests the two conditions and selects between the
  literals 1 and 0; the other first replaces a non-positive median by +∞ (so that nothing reaches the
  threshold there) and then converts the single comparison `x ≥ threshold` to a float. On the extended reals
  the two agree as soon as `x` itself is not +∞: only `x = +∞` reaches a threshold of +∞.
-/
import Idealize.ShloMosaic.PureOps.Ideal
import Idealize.ShloMosaic.PureOps.Ideal.Laws

noncomputable section

namespace Cert.Binarize

open Idealize.ShloMosaic

/-- The threshold one program computes on the host: the median where it is positive, +∞ elsewhere. -/
def thresh (med : Ideal .f32) : Ideal .f32 :=
  Scalar.select (FloatOps.cmpf (F := Ideal) .ogt med (FloatOps.ofBits (F := Ideal) .f32 0x00000000#32)) med
    (FloatOps.ofBits (F := Ideal) .f32 0x7F800000#32)

/-- One entry as the compare-and-convert program computes it: the bit `x ≥ thresh med`, widened, as a float. -/
def viaThreshold (x med : Ideal .f32) : Ideal .f32 :=
  FloatOps.sitofp (F := Ideal) .f32 ((FloatOps.cmpf (F := Ideal) .oge x (thresh med)).setWidth 32)

/-- One entry as the two-condition program computes it: 1 where `med > 0` and `x ≥ med`, else 0. -/
def viaBothTests (x med : Ideal .f32) : Ideal .f32 :=
  Scalar.select (IntOp.andi (FloatOps.cmpf (F := Ideal) .ogt med (FloatOps.ofBits (F := Ideal) .f32 0x00000000#32))
      (FloatOps.cmpf (F := Ideal) .oge x med))
    (FloatOps.ofBits (F := Ideal) .f32 0x3F800000#32) (FloatOps.ofBits (F := Ideal) .f32 0x00000000#32)

theorem ofBits_posInf : Ideal.ofBits .f32 0x7F800000#32 = (⊤ : EReal) := by simp [Ideal.ofBits, Ideal.ieee]

theorem ofBits_one : Ideal.ofBits .f32 0x3F800000#32 = (1 : EReal) := by
  simp [Ideal.ofBits, Ideal.ieee, -EReal.coe_mul]; norm_num

/-- The two readings of one entry agree wherever `x` is not +∞. -/
theorem viaThreshold_eq_viaBothTests (x med : Ideal .f32) (hx : x ≠ (⊤ : EReal)) :
    viaThreshold x med = viaBothTests x med := by
  unfold viaThreshold viaBothTests thresh
  simp only [Ideal.ofBits_def, Ideal.ofBits_zero_f32, ofBits_posInf, ofBits_one]
  show ((((Ideal.cmp .oge x (Scalar.select (Ideal.cmp .ogt med 0) med ⊤)).setWidth 32).toInt : ℝ) : EReal)
    = Scalar.select (IntOp.andi (Ideal.cmp .ogt med 0) (Ideal.cmp .oge x med)) 1 0
  unfold Ideal.cmp Scalar.select IntOp.andi
  by_cases hm : (0 : EReal) < med
  · by_cases hxm : med ≤ x
    · simp [hm, hxm]
    · simp [hm, hxm]
  · have hx' : ¬ ((⊤ : EReal) ≤ x) := fun h => hx (top_le_iff.mp h)
    simp [hm, hx']

/-! ## The whole array

`x` has 16384 rows of 4096 features and there is one median per feature: entry `(b, f)` of the result depends on
`x (b, f)` and on the median of column `f` only. -/

/-- The shape of `x` and of the result: 16384 rows of 4096 features. -/
abbrev SX : Shape := ⟨2, ![16384, 4096]⟩
/-- The shape of the medians: one per feature. -/
abbrev SM : Shape := ⟨1, ![4096]⟩

/-- The feature (column) of an entry of `x`, as an index of the medians. -/
def col (i : SX.Idx) : SM.Idx := fun a => match a with
  | ⟨0, _⟩ => ⟨(i 1).val, (i 1).isLt⟩

/-- The binarized array, entry by entry, in the compare-and-convert reading. -/
def binarized (x : SX.Idx → Ideal .f32) (med : SM.Idx → Ideal .f32) : SX.Idx → Ideal .f32 :=
  fun i => viaThreshold (x i) (med (col i))

end Cert.Binarize

end
-- ==== Proof.FiniteX.lean ====
/-
  What the precondition gives the value proof: every entry of `x` is below +∞ in absolute value, so no
  entry of `x` is +∞. (The medians need no such fact: the scalar law holds for every extended-real median.)
-/
import proofs.«155812_j72224170049693_2_alg».proof.Pre_finite_inputs
import proofs.«155812_j72224170049693_2_alg».proof.Proof.BinarizeLaw
import Idealize.ShloMosaic.Lib.ReduceAll
import Idealize.ShloMosaic.Lib.Affine
import Idealize.ShloMosaic.Lib.ValueIdx

noncomputable section

namespace Cert.Binarize

open Idealize.ShloMosaic

instance : Subsingleton Cert.Pre_finite_inputs.S_.Idx := ⟨fun a b => funext fun d => d.elim0⟩

/-- The precondition is the conjunction of two `all`s; the first says `|x i| < +∞` at every index, and
    `|+∞| = +∞` is not below +∞. -/
theorem x_ne_top [Cert.Pre_finite_inputs.Facts]
    (a0 : FVec Ideal Cert.Pre_finite_inputs.S16384x4096 .f32) (a1 : FVec Ideal Cert.Pre_finite_inputs.S4096 .f32)
    (h : Cert.Pre_finite_inputs.fn (F := Ideal) a0 a1 = fun _ => 1#1) (i : Cert.Pre_finite_inputs.S16384x4096.Idx) :
    a0 i ≠ (⊤ : EReal) := by
  have h0 := congrFun h ValueIdx.ix0
  dsimp only [Cert.Pre_finite_inputs.fn] at h0
  have h1 := (IntOp.andi_eq_one.1 h0).1
  have h2 := Host.reduce_andi_all _ _ _ _ _ h1 i
  intro hx
  have h3 : Ideal.cmp .olt (max (a0 i) (-(a0 i))) (Ideal.ofBits .f32 0x7F800000#32) = 1#1 := h2
  rw [hx, ofBits_posInf] at h3
  simp [Ideal.cmp] at h3

end Cert.Binarize

end
-- ==== Proof.ReferenceAt.lean ====
/-
  The reference program's result, read at an index: broadcast the medians and the bit `med > 0` along the rows,
  compare, conjoin, and select between the literals 1 and 0. At entry `(b, f)` that is the two-condition reading
  of `x (b, f)` against the median of column `f`.
-/
import proofs.«155812_j72224170049693_2_alg».proof.Proof.Gen.ReferenceIdeal.Read
import proofs.«155812_j72224170049693_2_alg».proof.Proof.BinarizeLaw

noncomputable section

namespace Cert.Binarize

open Idealize.ShloMosaic Cert.ReferenceIdeal Cert.ReferenceIdeal.Read

/-- Both row-broadcasts (of the medians, and of the bit `med > 0`) read column `f` of their operand. -/
theorem median_index (i : S16384x4096.Idx) : idx_main_v2 (idx_main_v3 i) = col i :=
  funext fun a => Fin.ext (by match a with | ⟨0, _⟩ => rfl)

theorem gate_index (i : S16384x4096.Idx) : idx_main_v5 (idx_main_v6 i) = col i :=
  funext fun a => Fin.ext (by match a with | ⟨0, _⟩ => rfl)

/-- The reference's result at an index is the two-condition reading of that entry. -/
theorem reference_at (x0 : (⟨S16384x4096, .f32⟩ : BufTy).Contents (Elt Ideal)) (x1 : (⟨S4096, .f32⟩ : BufTy).Contents (Elt Ideal))
    (i : S16384x4096.Idx) :
    val_main_v8 (F := Ideal) x0 x1 i = viaBothTests (x0 i) (x1 (col i)) := by
  rw [val_main_v8_apply, val_main_v7_apply, val_main_v6_apply, val_main_v5_apply, val_main_v1_apply, val_main_v0_apply,
    val_main_cst_apply, val_main_v4_apply, val_main_v3_apply, val_main_v2_apply, val_main_call0_v0_apply,
    val_main_cst_0_apply, val_main_call0_v1_apply, val_main_cst_1_apply, median_index, gate_index]
  rfl

end Cert.Binarize

end
-- ==== Proof.KernelArray.lean ====
/-
  The launched program's result array. The host first prepares one row of thresholds (the median where it is
  positive, +∞ elsewhere); the grid then has 32 points, point `t` taking rows `512 t … 512 t + 511` of `x` together
  with the whole row of thresholds, and writing the same rows of the result: entry `(r, f)` of its block is the bit
  `x (512 t + r, f) ≥ threshold f` as a float. Every row belongs to exactly one point, `t = row / 512`, so the array
  after the run is the compare-and-convert reading of every entry.
-/
import proofs.«155812_j72224170049693_2_alg».proof.Proof.Gen.KernelIdeal.Value
import proofs.«155812_j72224170049693_2_alg».proof.Proof.BinarizeLaw
import Idealize.ShloMosaic.Lib.StableHlo.Run
import Idealize.ShloMosaic.Lib.Pipeline.Value
import Idealize.ShloMosaic.Lib.ValueIdx

set_option maxRecDepth 16384

noncomputable section

namespace Cert.Binarize

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The row of thresholds -/

/-- The one-row array the host prepares before the launch: the medians where the bit `median > 0` is set, +∞
    elsewhere, re-laid from 4096 entries to one row of 4096. -/
theorem staged_thresholds (c : Dev nD) :
    (V m c main_v3 : S1x4096.Idx → EReal)
      = shapeCast S1x4096 (select (cmpf .ogt (m ((c : Thread nD τ).loc main_arg1)) (broadcastInDim S4096 ![] bcast_S_S4096 (constant (F := Ideal) S_ .f32 0x00000000#32)))
          (m ((c : Thread nD τ).loc main_arg1)) (broadcastInDim S4096 ![] bcast_S_S4096 (constant (F := Ideal) S_ .f32 0x7F800000#32))) shapeCasts_S4096_S1x4096 := by
  dsimp only [Gen.V]
  simp only [Gen.hostOps0, Gen.hostOps0_1, Gen.hostOps0_2, List.flatten_cons, List.flatten_nil, List.append_nil, List.cons_append, List.nil_append]
  after_results
  rfl

/-- Entry `(0, f)` of that row is the threshold of the median of feature `f`: the re-laying keeps the row-major
    position, and the row has a single line. -/
theorem staged_thresholds_at (c : Dev nD) (j : S1x4096.Idx) (k : S4096.Idx) (hk : (k 0).val = (j 1).val) :
    (V m c main_v3 : S1x4096.Idx → EReal) j = thresh (m ((c : Thread nD τ).loc main_arg1) k) := by
  rw [staged_thresholds]
  refine (shapeCast_apply _ shapeCasts_S4096_S1x4096 j k ?_).trans ?_
  · rw [Shape.rowMajor_val_two, Shape.rowMajor_val_one]
    have h0 : (j 0).val < 1 := (j 0).isLt
    show (k 0).val = (j 0).val * 4096 + (j 1).val
    omega
  · rfl

/-! ## One grid point -/

theorem origin_eq : (![0, 0] : Fin 2 → Nat) = fun _ => 0 := funext fun a => by fin_cases a <;> rfl

/-- Where the three windows sit at point `t`, decided over the 32 points: the blocks of `x` and of the result are
    block-row `t` (and the only block-column), the thresholds' block is the whole row. -/
theorem block_positions : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) = t.val :=
  (by decide +kernel : ∀ t : Fin grid0.N, _)

/-- What point `t` writes back is block `t` of the binarized array: at entry `(r, f)` of the block the body compares
    `x`'s block at `(r, f)` — the array's entry `(512 t + r, f)` — with the threshold row at `(0, f)`, the threshold of
    feature `f`, and converts the bit. -/
theorem flushed_eq (c : Dev nD) (t : Fin cfg0.N) :
    (dats m 0 c).flushed 2 t
      = ((cfg0.win 2).blk t).view.read (Elt Ideal) (binarized (V m c main_arg0) (m ((c : Thread nD τ).loc main_arg1))) := by
  rw [Cert.KernelIdeal.Value.flushed2]
  funext j
  show out0_2 (iblk m c 0 t) (iblk m c 1 t) j = _
  unfold out0_2
  refine (Cert.KernelIdeal.Value.canon2_eq (F := Ideal) _ _ j).trans ?_
  simp only [View.ld_unit_zero (S := S512x4096) origin_eq, View.ld_unit_zero (S := S1x4096) origin_eq]
  obtain ⟨f0, f1, f2, f3, f4, f5⟩ := block_positions t
  have hj0 : (j 0).val < 512 := (j 0).isLt
  have hj1 : (j 1).val < 4096 := (j 1).isLt
  have e0 : iblk m c 0 t (Cert.KernelIdeal.Value.ix2_0 j) = V m c main_arg0 (((cfg0.win 2).blk t).view.emb j) := by
    show V m c main_arg0 (((cfg0.win 0).blk t).view.emb (Cert.KernelIdeal.Value.ix2_0 j)) = _
    congr 1; funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have e1 : iblk m c 1 t (Cert.KernelIdeal.Value.ix2_1 j)
      = thresh (m ((c : Thread nD τ).loc main_arg1) (col (((cfg0.win 2).blk t).view.emb j))) := by
    show (V m c main_v3 : S1x4096.Idx → EReal) (((cfg0.win 1).blk t).view.emb (Cert.KernelIdeal.Value.ix2_1 j)) = _
    refine staged_thresholds_at m c _ _ ?_
    show win0_2.index t (1 : Fin 2) * 4096 + 1 * (j 1).val = win0_1.index t (1 : Fin 2) * 4096 + 1 * (j 1).val
    omega
  show FloatOps.sitofp (F := Ideal) .f32 ((FloatOps.cmpf (F := Ideal) .oge (iblk m c 0 t (Cert.KernelIdeal.Value.ix2_0 j)) (iblk m c 1 t (Cert.KernelIdeal.Value.ix2_1 j))).setWidth 32)
     = viaThreshold (V m c main_arg0 (((cfg0.win 2).blk t).view.emb j)) (m ((c : Thread nD τ).loc main_arg1) (col (((cfg0.win 2).blk t).view.emb j)))
  rw [e0, e1]
  rfl

/-! ## The 32 blocks tile the array -/

/-- An index of the result lies in point `t`'s block iff each coordinate lies in the block's range on its axis. -/
theorem mem_block (t : Fin cfg0.N) (i : S16384x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v4).slice (win0_2.rect t)).set ↔ _
  rw [View.set_slice_whole, Rect.mem_set_unit]
  exact Iff.rfl

/-- Every entry of the result is written back by some point: row `r` by point `r / 512`. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hlt : (i 0).val / 512 < grid0.N := by rw [N_0]; omega
  obtain ⟨f0, f1, f2, f3, f4, f5⟩ := block_positions ⟨(i 0).val / 512, hlt⟩
  have f5' : win0_2.index ⟨(i 0).val / 512, hlt⟩ (0 : Fin 2) = (i 0).val / 512 := f5
  refine ⟨⟨(i 0).val / 512, hlt⟩, flush0_2 _, ?_⟩
  rw [mem_block]
  intro a
  match a with
  | ⟨0, _⟩ => show win0_2.index ⟨(i 0).val / 512, hlt⟩ (0 : Fin 2) * 512 ≤ (i 0).val ∧ (i 0).val < win0_2.index ⟨(i 0).val / 512, hlt⟩ (0 : Fin 2) * 512 + 512; omega
  | ⟨1, _⟩ => show win0_2.index ⟨(i 0).val / 512, hlt⟩ (1 : Fin 2) * 4096 ≤ (i 1).val ∧ (i 1).val < win0_2.index ⟨(i 0).val / 512, hlt⟩ (1 : Fin 2) * 4096 + 4096; omega

/-! ## The array after the run -/

/-- After the last point the result array is the binarized array of the two arguments as launched. -/
theorem final (c : Dev nD) :
    (dats m 0 c).arrAt 2 cfg0.N
      = binarized (m ((c : Thread nD τ).loc main_arg0)) (m ((c : Thread nD τ).loc main_arg1)) := by
  rw [← V_main_arg0 m c]
  exact (dats m 0 c).arrAt_eq_of_cover 2 (binarized (V m c main_arg0) (m ((c : Thread nD τ).loc main_arg1)))
    (fun t _ => flushed_eq m c t) covered

/-- Every weakly fair execution of the launched program terminates with the result array at the binarized array of
    the arguments, and the arguments unchanged. -/
theorem run : θ_run defs (onTc (τ := τ) (main (F := Ideal))) ⟨m, fun _ => 0, ρ⟩ fun r => ∀ c : Dev nD,
      r.2.mem ((c : Thread nD τ).loc main_v4)
        = binarized (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Binarize

end
-- ==== Proof.lean ====
/- The certificate of a binarizing layer over `x : f32[16384, 4096]` and one median per feature: the result is 1 where
   `median f > 0` and `x (b, f) ≥ median f`, else 0.

   The reference tests both conditions on whole arrays and selects between the literals 1 and 0. The launched program
   folds the first condition into the threshold — the median where it is positive, +∞ elsewhere, prepared on the host —
   and its 32 grid points each compare 512 rows of `x` with that row of thresholds and convert the bit to a float.

   On the extended reals the two readings of an entry agree as soon as `x (b, f)` is not +∞ (Proof/BinarizeLaw.lean): with a
   positive median both are the bit `x ≥ median`, and otherwise only `x = +∞` could reach the threshold +∞. That is what
   the precondition gives (Proof/FiniteX.lean). Proof/KernelArray.lean reads the launched program's result array as the
   threshold reading of every entry (each row is written by exactly one point), Proof/ReferenceAt.lean reads the reference's
   result at an index as the two-condition reading, and below the two runs are set side by side. The three frame claims are the
   generated frame runs; no operation was rewritten by the idealization, so its claim is trivial. -/
import proofs.«155812_j72224170049693_2_alg».proof.Defs
import proofs.«155812_j72224170049693_2_alg».proof.Proof.Gen.Kernel
import proofs.«155812_j72224170049693_2_alg».proof.Proof.Gen.Kernel.Skeleton
import proofs.«155812_j72224170049693_2_alg».proof.Proof.Gen.Kernel.Launch
import proofs.«155812_j72224170049693_2_alg».proof.Proof.Gen.Kernel.Points
import proofs.«155812_j72224170049693_2_alg».proof.Proof.Gen.Kernel.Frame
import proofs.«155812_j72224170049693_2_alg».proof.Proof.Gen.KernelIdeal
import proofs.«155812_j72224170049693_2_alg».proof.Proof.Gen.KernelIdeal.Skeleton
import proofs.«155812_j72224170049693_2_alg».proof.Proof.Gen.KernelIdeal.Launch
import proofs.«155812_j72224170049693_2_alg».proof.Proof.Gen.KernelIdeal.Points
import proofs.«155812_j72224170049693_2_alg».proof.Proof.Gen.KernelIdeal.Frame
import proofs.«155812_j72224170049693_2_alg».proof.Proof.Gen.ReferenceIdeal
import proofs.«155812_j72224170049693_2_alg».proof.Proof.Gen.Pre_finite_inputs
import proofs.«155812_j72224170049693_2_alg».proof.Proof.Gen.KernelIdeal.Value
import proofs.«155812_j72224170049693_2_alg».proof.Proof.Gen.ReferenceIdeal.Run
import proofs.«155812_j72224170049693_2_alg».proof.Proof.Gen.ReferenceIdeal.Read
import proofs.«155812_j72224170049693_2_alg».proof.Proof.BinarizeLaw
import proofs.«155812_j72224170049693_2_alg».proof.Proof.FiniteX
import proofs.«155812_j72224170049693_2_alg».proof.Proof.ReferenceAt
import proofs.«155812_j72224170049693_2_alg».proof.Proof.KernelArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the binarized array of the arguments: the launched one in the threshold reading
    (`Cert.Binarize.run`), the reference in the two-condition reading at every index (`Cert.Binarize.reference_at`), and
    the two readings agree entry by entry because no entry of `x` is +∞ under the precondition. -/
theorem algebraic : Cert.algebraic_KernelIdeal_ReferenceIdeal := by
  intro m ρ m' ρ' hpre hagree
  refine ⟨fun c => Cert.Binarize.binarized
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Binarize.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2]
  funext i
  rw [Cert.Binarize.reference_at]
  exact (Cert.Binarize.viaThreshold_eq_viaBothTests _ _ (Cert.Binarize.x_ne_top _ _ (hpre c) i)).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
